-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x1024 : Shape := ⟨2, ![256, 1024]⟩
abbrev S1024x1024 : Shape := ⟨2, ![1024, 1024]⟩
abbrev S1024x256 : Shape := ⟨2, ![1024, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S131072x256 .f32) (main_arg1 : FVec F S256x1024 .f32) (main_arg2 : FVec F S1024x1024 .f32) (main_arg3 : FVec F S1024x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Kernel.lean ====
abbrev S131072x256 : Shape := ⟨2, ![131072, 256]⟩
abbrev S256x1024 : Shape := ⟨2, ![256, 1024]⟩
abbrev S1024x1024 : Shape := ⟨2, ![1024, 1024]⟩
abbrev S1024x256 : Shape := ⟨2, ![1024, 256]⟩
abbrev S2048x256 : Shape := ⟨2, ![2048, 256]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S256x1024, .f32⟩
  | .hbm, ⟨2, _⟩ => ⟨S1024x1024, .f32⟩
  | .hbm, ⟨3, _⟩ => ⟨S1024x256, .f32⟩
  | .hbm, ⟨4, _⟩ => ⟨S131072x256, .bf16⟩
  | .hbm, ⟨5, _⟩ => ⟨S256x1024, .bf16⟩
  | .hbm, ⟨6, _⟩ => ⟨S1024x1024, .bf16⟩
  | .hbm, ⟨7, _⟩ => ⟨S1024x256, .bf16⟩
  | .hbm, ⟨8, _⟩ => ⟨S131072x256, .f32⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x256, .bf16⟩
  | .local _ .vmem, ⟨5, _⟩ => ⟨S2048x256, .f32⟩
  | .local _ .vmem, ⟨6, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S2048x256_S256x1024_S2048x1024_1_0_0_1_n_n_wf : DotDims.WF S2048x256 S256x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .bf16 = 32 ∨ (Rect.block (s := S131072x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x1024 : Shape := ⟨2, ![256, 1024]⟩
abbrev S1024x1024 : Shape := ⟨2, ![1024, 1024]⟩
abbrev S1024x256 : Shape := ⟨2, ![1024, 256]⟩
abbrev S131072x1024 : Shape := ⟨2, ![131072, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x1024, .f32⟩
  | .hbm, ⟨2, _⟩ => ⟨S1024x1024, .f32⟩
  | .hbm, ⟨3, _⟩ => ⟨S1024x256, .f32⟩
  | .hbm, ⟨4, _⟩ => ⟨S131072x1024, .f32⟩
  | .hbm, ⟨5, _⟩ => ⟨S_, .f32⟩
  | .hbm, ⟨6, _⟩ => ⟨S131072x1024, .f32⟩
  | .hbm, ⟨7, _⟩ => ⟨S131072x1024, .f32⟩
  | .hbm, ⟨8, _⟩ => ⟨S131072x1024, .f32⟩
  | .hbm, ⟨9, _⟩ => ⟨S131072x1024, .f32⟩
  | .hbm, ⟨10, _⟩ => ⟨S131072x1024, .i1⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S131072x1024, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S131072x1024, .f32⟩
  | .hbm, ⟨20, _⟩ => ⟨S_, .f32⟩
  | .hbm, ⟨21, _⟩ => ⟨S131072x1024, .f32⟩
  | .hbm, ⟨22, _⟩ => ⟨S131072x1024, .f32⟩
  | .hbm, ⟨23, _⟩ => ⟨S131072x1024, .f32⟩
  | .hbm, ⟨24, _⟩ => ⟨S131072x1024, .f32⟩
  | .hbm, ⟨25, _⟩ => ⟨S131072x1024, .i1⟩
  | .hbm, ⟨26, _⟩ => ⟨S131072x1024, .f32⟩
  | .hbm, ⟨27, _⟩ => ⟨S131072x1024, .f32⟩
  | .hbm, ⟨28, _⟩ => ⟨S131072x1024, .f32⟩
  | .hbm, ⟨29, _⟩ => ⟨S131072x1024, .f32⟩
  | .hbm, ⟨30, _⟩ => ⟨S131072x1024, .f32⟩
  | .hbm, ⟨31, _⟩ => ⟨S131072x1024, .f32⟩
  | .hbm, ⟨32, _⟩ => ⟨S131072x1024, .f32⟩
  | .hbm, ⟨33, _⟩ => ⟨S131072x1024, .f32⟩
  | .hbm, ⟨34, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v1 : Ref sig .tc := ⟨.hbm, 18, rfl⟩
abbrev main_v2 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_v3 : Ref sig .tc := ⟨.hbm, 33, rfl⟩
abbrev main_v4 : Ref sig .tc := ⟨.hbm, 34, rfl⟩

abbrev nD : Nat := 1
abbrev τ : Topo := Topo.v7x

variable {F : FTy → Type} [FloatOps F]

class Facts₀ : Prop where
  bcast_S_S131072x1024 : S_.BroadcastsInDim S131072x1024 (![] : Fin 0 → Fin S131072x1024.rank)
  dot_S131072x256_S256x1024_S131072x1024_1_0_0_1_n_n_wf : DotDims.WF S131072x256 S256x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x256_S131072x256_1_0_0_1_n_n_wf : DotDims.WF S131072x1024 S1024x256 S131072x256 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x256_S131072x256_1_0_0_1_n_n : DotDims S131072x1024 S1024x256 S131072x256 where
  lhsContracting := [1]
  rhsContracting := [0]
  lhsNonContracting := [0]
  rhsNonContracting := [1]
  lhsBatch := []
  rhsBatch := []
  wf := dot_S131072x1024_S1024x256_S131072x256_1_0_0_1_n_n_wf

class Facts : Prop extends Facts₀ where

variable [Facts]
-- ==== Proof.Mlp.lean ====
/-
  The function both programs compute, on the extended reals: three dense layers with a softplus after the first two,

    out (r, q) = ∑ k₃, sp (∑ k₂, sp (∑ k₁, x (r, k₁) · w₁ (k₁, k₂)) · w₂ (k₂, k₃)) · w₃ (k₃, q),

  where sp h = max h 0 + log (1 + exp (−|h|)) is softplus in its overflow-free arrangement (log (1 + eʰ) for every real h).
  Row r of the result depends on row r of x only, so the function is stated for ONE row of x (`mlpRow`) and the whole
  array (`mlp`) reads its row off the index. Below it the two spellings of softplus that the programs use are reduced to
  `softplus` one element at a time: both guard a "not a number" case by comparing h − 0 with itself, which on the extended
  reals never holds, so the guarded branch is never taken; one writes 0 − |h|, the other −|h|.
-/
import Idealize.ShloMosaic.Lib.ValueIdx
import Idealize.ShloMosaic.PureOps.Ideal.Laws

noncomputable section

namespace Cert.Mlp

open Idealize.ShloMosaic Idealize.ShloMosaic.ValueIdx
open scoped BigOperators

/-- Softplus on the extended reals: max h 0 + log (1 + exp (−|h|)), with |h| = max h (−h). -/
def softplus (h : EReal) : EReal := max h 0 + Ideal.log1p (Ideal.exp (-(max h (-h))))

/-- An extended real compared with itself for "different" answers the bit 0, under either name of the comparison. -/
theorem cmp_one_self (a : EReal) : Ideal.cmp .one a a = 0#1 := by simp [Ideal.cmp]
theorem cmp_une_self (a : EReal) : Ideal.cmp .une a a = 0#1 := by simp [Ideal.cmp]

/-- The vector unit's spelling at one element: select (h − 0 ≠ h − 0, h + 0, max h 0 + log1p (exp (0 − |h − 0|))). -/
theorem softplus_of_sub (h : Ideal .f32) :
    Scalar.select (FloatOps.cmpf .one (FloatOps.subf h (FloatOps.ofBits .f32 0x00000000#32)) (FloatOps.subf h (FloatOps.ofBits .f32 0x00000000#32)))
      (FloatOps.addf h (FloatOps.ofBits .f32 0x00000000#32))
      (FloatOps.addf (FloatOps.maximumf h (FloatOps.ofBits .f32 0x00000000#32))
        (FloatOps.log1p (FloatOps.exp (FloatOps.subf (FloatOps.ofBits .f32 0x00000000#32)
          (FloatOps.absf (FloatOps.subf h (FloatOps.ofBits .f32 0x00000000#32)))))))
    = softplus h := by
  rw [Ideal.cmpf_def, cmp_one_self, select_zero]
  simp only [Ideal.ofBits_def, Ideal.ofBits_zero_f32, Ideal.addf_def, Ideal.maximumf_def, Ideal.log1p_def, Ideal.exp_def,
    Ideal.subf_def, Ideal.absf_def]
  unfold softplus
  rw [sub_zero, zero_sub]

/-- The host's spelling at one element: select (h − 0 ≠ h − 0, h + 0, max h 0 + log1p (exp (−|h − 0|))). -/
theorem softplus_of_neg (h : Ideal .f32) :
    Scalar.select (FloatOps.cmpf .une (FloatOps.subf h (FloatOps.ofBits .f32 0x00000000#32)) (FloatOps.subf h (FloatOps.ofBits .f32 0x00000000#32)))
      (FloatOps.addf h (FloatOps.ofBits .f32 0x00000000#32))
      (FloatOps.addf (FloatOps.maximumf h (FloatOps.ofBits .f32 0x00000000#32))
        (FloatOps.hostUnary .log1p (FloatOps.hostUnary .exp (FloatOps.hostNegf
          (FloatOps.hostAbsf (FloatOps.subf h (FloatOps.ofBits .f32 0x00000000#32)))))))
    = softplus h := by
  rw [Ideal.cmpf_def, cmp_une_self, select_zero]
  simp only [Ideal.ofBits_def, Ideal.ofBits_zero_f32, Ideal.addf_def, Ideal.maximumf_def, Ideal.hostUnary_log1p_def,
    Ideal.hostUnary_exp_def, Ideal.hostNegf_def, Ideal.hostAbsf_def, Ideal.negf_def, Ideal.subf_def, Ideal.absf_def]
  unfold softplus
  rw [sub_zero]

/-- The vector unit's softplus of a whole vector of any shape. -/
def vecSoftplus {s : Shape} (h : FVec Ideal s .f32) : FVec Ideal s .f32 :=
  select (cmpf .one (subf h (broadcast s (Scalar.ofBits .f32 0x00000000#32))) (subf h (broadcast s (Scalar.ofBits .f32 0x00000000#32))))
    (addf h (broadcast s (Scalar.ofBits .f32 0x00000000#32)))
    (addf (maximumf h (broadcast s (Scalar.ofBits .f32 0x00000000#32)))
      (log1p (exp (subf (broadcast s (Scalar.ofBits .f32 0x00000000#32)) (absf (subf h (broadcast s (Scalar.ofBits .f32 0x00000000#32))))))))

/-- Read at an index it is softplus of the element. -/
theorem vecSoftplus_apply {s : Shape} (h : FVec Ideal s .f32) (j : s.Idx) : vecSoftplus h j = softplus (h j) :=
  softplus_of_sub (h j)

/-- One row of the result from one row of x and the three weight matrices. -/
def mlpRow (xr : Fin 256 → EReal) (w1 : (⟨2, ![256, 1024]⟩ : Shape).Idx → EReal) (w2 : (⟨2, ![1024, 1024]⟩ : Shape).Idx → EReal)
    (w3 : (⟨2, ![1024, 256]⟩ : Shape).Idx → EReal) (q : Fin 256) : EReal :=
  ∑ k3 : Fin 1024, softplus (∑ k2 : Fin 1024, softplus (∑ k1 : Fin 256, xr k1 * w1 (ix2 k1 k2)) * w2 (ix2 k2 k3)) * w3 (ix2 k3 q)

/-- The whole result: entry (r, q) is `mlpRow` of row r of x at column q. -/
def mlp (x : (⟨2, ![131072, 256]⟩ : Shape).Idx → EReal) (w1 : (⟨2, ![256, 1024]⟩ : Shape).Idx → EReal)
    (w2 : (⟨2, ![1024, 1024]⟩ : Shape).Idx → EReal) (w3 : (⟨2, ![1024, 256]⟩ : Shape).Idx → EReal) :
    (⟨2, ![131072, 256]⟩ : Shape).Idx → EReal :=
  fun i => mlpRow (fun k => x (ix2 (i 0) k)) w1 w2 w3 (i 1)

theorem mlp_apply (x : (⟨2, ![131072, 256]⟩ : Shape).Idx → EReal) (w1 : (⟨2, ![256, 1024]⟩ : Shape).Idx → EReal)
    (w2 : (⟨2, ![1024, 1024]⟩ : Shape).Idx → EReal) (w3 : (⟨2, ![1024, 256]⟩ : Shape).Idx → EReal) (r : Fin 131072) (q : Fin 256) :
    mlp x w1 w2 w3 (ix2 r q) = mlpRow (fun k => x (ix2 r k)) w1 w2 w3 q := rfl

end Cert.Mlp

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.Payload.lean ====
/-
  What the kernel body stores for one block of 2048 rows, read at one entry: with the block of x, and the three weight
  matrices, as the body loaded them, entry (p, q) of the stored value is the three-layer function of row p of the block
  (`Cert.Mlp.mlpRow`). The body is three matrix products into zero accumulators with the vector unit's softplus after the
  first two; a change of float format is the identity on extended reals and the shape casts are of a shape to itself, so
  each product read at (p, c) is the plain sum over the contracted axis of row p times column c.
-/
import proofs.«115337_j69286412419486_1_alg».proof.Proof.Gen.KernelIdeal.Skeleton
import proofs.«115337_j69286412419486_1_alg».proof.Proof.Mlp
import proofs.«115337_j69286412419486_1_alg».proof.Proof.LibDenseRows
import Idealize.ShloMosaic.Lib.Pipeline.Value

noncomputable section

namespace Cert.KernelIdeal.Payload

open Cert.KernelIdeal Cert.KernelIdeal.Gen Idealize.ShloMosaic Idealize.ShloMosaic.ValueIdx Cert.Mlp Cert.DenseRows
open scoped BigOperators

/-! ## The three products keep the left operand's row and the right operand's column -/

theorem first_l0 (j : S2048x1024.Idx) (k : dot_S2048x256_S256x1024_S2048x1024_1_0_0_1_n_n.contr.Idx) : (dot_S2048x256_S256x1024_S2048x1024_1_0_0_1_n_n.lhsIdx j k (0 : Fin 2)).val = (j (0 : Fin 2)).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem first_r1 (j : S2048x1024.Idx) (k : dot_S2048x256_S256x1024_S2048x1024_1_0_0_1_n_n.contr.Idx) : (dot_S2048x256_S256x1024_S2048x1024_1_0_0_1_n_n.rhsIdx j k (1 : Fin 2)).val = (j (1 : Fin 2)).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

theorem second_l0 (j : S2048x1024.Idx) (k : dot_S2048x1024_S1024x1024_S2048x1024_1_0_0_1_n_n.contr.Idx) : (dot_S2048x1024_S1024x1024_S2048x1024_1_0_0_1_n_n.lhsIdx j k (0 : Fin 2)).val = (j (0 : Fin 2)).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem second_r1 (j : S2048x1024.Idx) (k : dot_S2048x1024_S1024x1024_S2048x1024_1_0_0_1_n_n.contr.Idx) : (dot_S2048x1024_S1024x1024_S2048x1024_1_0_0_1_n_n.rhsIdx j k (1 : Fin 2)).val = (j (1 : Fin 2)).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

theorem third_l0 (j : S2048x256.Idx) (k : dot_S2048x1024_S1024x256_S2048x256_1_0_0_1_n_n.contr.Idx) : (dot_S2048x1024_S1024x256_S2048x256_1_0_0_1_n_n.lhsIdx j k (0 : Fin 2)).val = (j (0 : Fin 2)).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem third_r1 (j : S2048x256.Idx) (k : dot_S2048x1024_S1024x256_S2048x256_1_0_0_1_n_n.contr.Idx) : (dot_S2048x1024_S1024x256_S2048x256_1_0_0_1_n_n.rhsIdx j k (1 : Fin 2)).val = (j (1 : Fin 2)).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-! ## The stored value -/

/-- The body's arithmetic with its two softplus stretches named. -/
theorem pay_eq (x0 : Vec Ideal S2048x256 .bf16) (x1 : Vec Ideal S256x1024 .bf16) (x2 : Vec Ideal S1024x1024 .bf16)
    (x3 : Vec Ideal S1024x256 .bf16) :
    k0_pay1 (F := Ideal) x0 x1 x2 x3 =
      matmul (φ₁ := .bf16) (φ₂ := .bf16) dot_S2048x1024_S1024x256_S2048x256_1_0_0_1_n_n none
        (truncf .bf16 (vecSoftplus (matmul (φ₁ := .bf16) (φ₂ := .bf16) dot_S2048x1024_S1024x1024_S2048x1024_1_0_0_1_n_n none
          (truncf .bf16 (vecSoftplus (matmul (φ₁ := .bf16) (φ₂ := .bf16) dot_S2048x256_S256x1024_S2048x1024_1_0_0_1_n_n none
            (shapeCast S2048x256 x0 shapeCasts_S2048x256_S2048x256) (shapeCast S256x1024 x1 shapeCasts_S256x1024_S256x1024)
            (constant S2048x1024 .f32 0x00000000#32))) bitsLt_bf16_f32)
          (shapeCast S1024x1024 x2 shapeCasts_S1024x1024_S1024x1024) (constant S2048x1024 .f32 0x00000000#32))) bitsLt_bf16_f32)
        (shapeCast S1024x256 x3 shapeCasts_S1024x256_S1024x256) (constant S2048x256 .f32 0x00000000#32) := rfl

/-- Entry (p, q) of the stored value is the three-layer function of row p of the loaded block of x. -/
theorem pay_apply (x0 : Vec Ideal S2048x256 .bf16) (x1 : Vec Ideal S256x1024 .bf16) (x2 : Vec Ideal S1024x1024 .bf16)
    (x3 : Vec Ideal S1024x256 .bf16) (p : Fin 2048) (q : Fin 256) :
    k0_pay1 (F := Ideal) x0 x1 x2 x3 (ix2 p q) = mlpRow (fun k => x0 (ix2 p k)) x1 x2 x3 q := by
  rw [pay_eq]
  simp only [shapeCast_self]
  refine (matmul_zero_plain_apply (φ₁ := .bf16) (φ₂ := .bf16) dot_S2048x1024_S1024x256_S2048x256_1_0_0_1_n_n rfl rfl rfl rfl third_l0 third_r1 _ x3 p q).trans ?_
  unfold mlpRow
  refine Finset.sum_congr rfl fun k3 _ => congrArg (· * x3 (ix2 k3 q)) ?_
  refine (vecSoftplus_apply _ (ix2 p k3)).trans (congrArg softplus ?_)
  refine (matmul_zero_plain_apply (φ₁ := .bf16) (φ₂ := .bf16) dot_S2048x1024_S1024x1024_S2048x1024_1_0_0_1_n_n rfl rfl rfl rfl second_l0 second_r1 _ x2 p k3).trans ?_
  refine Finset.sum_congr rfl fun k2 _ => congrArg (· * x2 (ix2 k2 k3)) ?_
  refine (vecSoftplus_apply _ (ix2 p k2)).trans (congrArg softplus ?_)
  exact matmul_zero_plain_apply (φ₁ := .bf16) (φ₂ := .bf16) dot_S2048x256_S256x1024_S2048x1024_1_0_0_1_n_n rfl rfl rfl rfl first_l0 first_r1 x0 x1 p k2

end Cert.KernelIdeal.Payload

end
-- ==== Proof.Whole.lean ====
/-
  From blocks to the whole array. The grid has 64 points; point t reads rows 2048·t … 2048·t + 2047 of x (all 256 columns)
  and the three weight matrices whole, and writes the same rows of the result. The arrays the region reads are the
  arguments converted to another float format, which on extended reals is the identity. So what point t writes back is
  block t of the three-layer function of the arguments (`Cert.Mlp.mlp`): entry (p, q) of the block depends on row
  2048·t + p of x only. The 64 blocks tile the 131072 rows — row r lies in block r / 2048 — so after the run the result
  array is that function everywhere.
-/
import proofs.«115337_j69286412419486_1_alg».proof.Proof.Gen.KernelIdeal.Value
import proofs.«115337_j69286412419486_1_alg».proof.Proof.Payload

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The arrays the region finds are the arguments -/

theorem found_main_v0 (c : Dev nD) : (V m c main_v0 : S131072x256.Idx → EReal) = m ((c : Thread nD τ).loc main_arg0) := by
  dsimp only [Gen.V, Gen.hostOps0]; after_results; rfl

theorem found_main_v1 (c : Dev nD) : (V m c main_v1 : S256x1024.Idx → EReal) = m ((c : Thread nD τ).loc main_arg1) := by
  dsimp only [Gen.V, Gen.hostOps0]; after_results; rfl

theorem found_main_v2 (c : Dev nD) : (V m c main_v2 : S1024x1024.Idx → EReal) = m ((c : Thread nD τ).loc main_arg2) := by
  dsimp only [Gen.V, Gen.hostOps0]; after_results; rfl

theorem found_main_v3 (c : Dev nD) : (V m c main_v3 : S1024x256.Idx → EReal) = m ((c : Thread nD τ).loc main_arg3) := by
  dsimp only [Gen.V, Gen.hostOps0]; after_results; rfl

/-! ## The blocks -/

/-- The block indices over the grid: x and the result move down one block of rows per point, the weights stay. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 ∧ win0_4.index t (1 : Fin 2) = 0 :=
  (by decide +kernel : ∀ t : Fin grid0.N, _)

/-- Every block of rows is some point's. -/
theorem index_onto : ∀ b : Fin 64, ∃ t : Fin cfg0.N, win0_4.index t = ![b.val, 0] :=
  (by decide +kernel : ∀ b : Fin 64, ∃ t : Fin grid0.N, win0_4.index t = ![b.val, 0])

/-- Window 1 is the whole of the first weight matrix at every point. -/
theorem weights1 (c : Dev nD) (t : Fin cfg0.N) : (iblk m c 1 t : S256x1024.Idx → EReal) = m ((c : Thread nD τ).loc main_arg1) := by
  obtain ⟨_, _, e10, e11, e20, e21, e30, e31, _, _⟩ := index_facts t
  funext y
  show V m c main_v1 (((cfg0.win 1).blk t).view.emb y) = _
  refine (congrFun (found_main_v1 m c) _).trans (congrArg _ ?_)
  funext a; apply Fin.ext
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- Window 2 is the whole of the second weight matrix at every point. -/
theorem weights2 (c : Dev nD) (t : Fin cfg0.N) : (iblk m c 2 t : S1024x1024.Idx → EReal) = m ((c : Thread nD τ).loc main_arg2) := by
  obtain ⟨_, _, e10, e11, e20, e21, e30, e31, _, _⟩ := index_facts t
  funext y
  show V m c main_v2 (((cfg0.win 2).blk t).view.emb y) = _
  refine (congrFun (found_main_v2 m c) _).trans (congrArg _ ?_)
  funext a; apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Window 3 is the whole of the third weight matrix at every point. -/
theorem weights3 (c : Dev nD) (t : Fin cfg0.N) : (iblk m c 3 t : S1024x256.Idx → EReal) = m ((c : Thread nD τ).loc main_arg3) := by
  obtain ⟨_, _, e10, e11, e20, e21, e30, e31, _, _⟩ := index_facts t
  funext y
  show V m c main_v3 (((cfg0.win 3).blk t).view.emb y) = _
  refine (congrFun (found_main_v3 m c) _).trans (congrArg _ ?_)
  funext a; apply Fin.ext
  match a with
  | ⟨0, _⟩ => show win0_3.index t (0 : Fin 2) * 1024 + 1 * (y 0).val = (y 0).val; omega
  | ⟨1, _⟩ => show win0_3.index t (1 : Fin 2) * 256 + 1 * (y 1).val = (y 1).val; omega

/-- Row p of point t's block of x is the row of x on which entry (p, q) of point t's block of the result sits. -/
theorem xrow (c : Dev nD) (t : Fin cfg0.N) (p : Fin 2048) (q k : Fin 256) :
    (iblk m c 0 t : S2048x256.Idx → EReal) (ix2 p k)
      = m ((c : Thread nD τ).loc main_arg0) (ix2 ((((cfg0.win 4).blk t).view.emb (ix2 p q) : S131072x256.Idx) 0) k) := by
  obtain ⟨e00, e01, _, _, _, _, _, _, _, e41⟩ := index_facts t
  show V m c main_v0 (((cfg0.win 0).blk t).view.emb (ix2 p k)) = _
  refine (congrFun (found_main_v0 m c) _).trans (congrArg _ ?_)
  funext a; apply Fin.ext
  match a with
  | ⟨0, _⟩ => show win0_0.index t (0 : Fin 2) * 2048 + 1 * p.val = win0_4.index t (0 : Fin 2) * 2048 + 1 * p.val; omega
  | ⟨1, _⟩ => show win0_0.index t (1 : Fin 2) * 256 + 1 * k.val = k.val; omega

/-- The column of entry (p, q) of point t's block of the result is q. -/
theorem qcol (t : Fin cfg0.N) (p : Fin 2048) (q : Fin 256) :
    (((cfg0.win 4).blk t).view.emb (ix2 p q) : S131072x256.Idx) 1 = q := by
  obtain ⟨_, _, _, _, _, _, _, _, _, e41⟩ := index_facts t
  apply Fin.ext
  show win0_4.index t (1 : Fin 2) * 256 + 1 * q.val = q.val
  omega

/-- WHAT POINT t WRITES BACK is block t of the three-layer function of the arguments. -/
theorem flushed_eq (c : Dev nD) (t : Fin cfg0.N) :
    (dats m 0 c).flushed 4 t = ((cfg0.win 4).blk t).view.read (Elt Ideal) (mlp (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [View.ld_unit_zero (S := S2048x256) origin, View.ld_unit_zero (S := S256x1024) origin,
    View.ld_unit_zero (S := S1024x1024) origin, View.ld_unit_zero (S := S1024x256) origin]
  funext j
  obtain ⟨p, q, rfl⟩ : ∃ (p : Fin 2048) (q : Fin 256), j = ix2 p q := ⟨j 0, j 1, eq_ix2 j⟩
  show k0_pay1 (F := Ideal) (iblk m c 0 t) (iblk m c 1 t) (iblk m c 2 t) (iblk m c 3 t) (ix2 p q)
    = mlpRow (fun k => m ((c : Thread nD τ).loc main_arg0) (ix2 ((((cfg0.win 4).blk t).view.emb (ix2 p q) : S131072x256.Idx) 0) k))
        (m ((c : Thread nD τ).loc main_arg1)) (m ((c : Thread nD τ).loc main_arg2)) (m ((c : Thread nD τ).loc main_arg3))
        ((((cfg0.win 4).blk t).view.emb (ix2 p q) : S131072x256.Idx) 1)
  refine (Payload.pay_apply _ _ _ _ p q).trans ?_
  rw [weights1 m c t, weights2 m c t, weights3 m c t, qcol t p q]
  exact congrArg (fun xr => mlpRow xr (m ((c : Thread nD τ).loc main_arg1)) (m ((c : Thread nD τ).loc main_arg2)) (m ((c : Thread nD τ).loc main_arg3)) q)
    (funext fun k => xrow m c t p q k)

/-! ## The cover -/

/-- An index of the result is in point t's block iff each coordinate is in the block's range on its axis. -/
theorem mem_block (t : Fin cfg0.N) (i : S131072x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v4).slice (win0_4.rect t)).set ↔ _
  rw [View.set_slice_whole, Rect.mem_set_unit]
  exact Iff.rfl

/-- Row r of the result lies in the block of point r / 2048. -/
theorem covered (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  obtain ⟨t, ht⟩ := index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE RESULT ARRAY after the run is the three-layer function of the arguments. -/
theorem final (c : Dev nD) : (dats m 0 c).arrAt 4 cfg0.N = mlp (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- The kernel's run: it terminates with the result array at the three-layer function of the arguments, and the arguments
    unchanged. -/
theorem run : θ_run defs (onTc (τ := τ) (main (F := Ideal))) ⟨m, fun _ => 0, ρ⟩ fun r => ∀ c : Dev nD,
      r.2.mem ((c : Thread nD τ).loc main_v4) = mlp (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/-
  The reference's result, stage by stage, is the three-layer function `Cert.Mlp.mlp` of its four arguments: each
  `dot_general` read at (r, c) is the sum over the contracted axis of row r of its left operand times column c of its
  right operand, and each call of softplus read at an index is `Cert.Mlp.softplus` of the element (the host's spelling,
  whose guarded branch is never taken on the extended reals).
-/
import proofs.«115337_j69286412419486_1_alg».proof.Proof.Gen.ReferenceIdeal.Read
import proofs.«115337_j69286412419486_1_alg».proof.Proof.Mlp

noncomputable section

namespace Cert.ReferenceIdeal.RefValue

open Cert.ReferenceIdeal Cert.ReferenceIdeal.Gen Cert.ReferenceIdeal.Read Idealize.ShloMosaic Idealize.ShloMosaic.ValueIdx Cert.Mlp
open scoped BigOperators

/-- The first softplus call, read at an index: softplus of the element of the product it is applied to. -/
theorem first_softplus_apply (x0 : (⟨S131072x256, .f32⟩ : BufTy).Contents (Elt Ideal)) (x1 : (⟨S256x1024, .f32⟩ : BufTy).Contents (Elt Ideal)) (i : S131072x1024.Idx) :
    val_main_v1 (F := Ideal) x0 x1 i = softplus (val_main_v0 (F := Ideal) x0 x1 i) := by
  simp only [val_main_v1_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  exact softplus_of_neg _

/-- The second softplus call, read at an index: softplus of the element of the product it is applied to. -/
theorem second_softplus_apply (x0 : (⟨S131072x256, .f32⟩ : BufTy).Contents (Elt Ideal)) (x1 : (⟨S256x1024, .f32⟩ : BufTy).Contents (Elt Ideal)) (x2 : (⟨S1024x1024, .f32⟩ : BufTy).Contents (Elt Ideal)) (i : S131072x1024.Idx) :
    val_main_v3 (F := Ideal) x0 x1 x2 i = softplus (val_main_v2 (F := Ideal) x0 x1 x2 i) := by
  simp only [val_main_v3_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply]
  exact softplus_of_neg _

/-- The first product at (r, j): row r of x times column j of the first weight matrix. -/
theorem first_product_apply (x0 : (⟨S131072x256, .f32⟩ : BufTy).Contents (Elt Ideal)) (x1 : (⟨S256x1024, .f32⟩ : BufTy).Contents (Elt Ideal)) (r : Fin 131072) (j : Fin 1024) :
    val_main_v0 (F := Ideal) x0 x1 (ix2 r j) = ∑ k : Fin 256, x0 (ix2 r k) * x1 (ix2 k j) := by
  rw [val_main_v0_apply]
  refine Finset.sum_congr rfl fun k _ => ?_
  have el : lidx_main_v0 (ix2 r j) k = ix2 r k := funext fun a => Fin.ext (by
    match a with
    | ⟨0, _⟩ => rfl
    | ⟨1, _⟩ => rfl)
  have er : ridx_main_v0 (ix2 r j) k = ix2 k j := funext fun a => Fin.ext (by
    match a with
    | ⟨0, _⟩ => rfl
    | ⟨1, _⟩ => rfl)
  rw [el, er]

/-- The second product at (r, j), over the first layer's softplus. -/
theorem second_product_apply (x0 : (⟨S131072x256, .f32⟩ : BufTy).Contents (Elt Ideal)) (x1 : (⟨S256x1024, .f32⟩ : BufTy).Contents (Elt Ideal)) (x2 : (⟨S1024x1024, .f32⟩ : BufTy).Contents (Elt Ideal)) (r : Fin 131072) (j : Fin 1024) :
    val_main_v2 (F := Ideal) x0 x1 x2 (ix2 r j) = ∑ k : Fin 1024, val_main_v1 (F := Ideal) x0 x1 (ix2 r k) * x2 (ix2 k j) := by
  rw [val_main_v2_apply]
  refine Finset.sum_congr rfl fun k _ => ?_
  have el : lidx_main_v2 (ix2 r j) k = ix2 r k := funext fun a => Fin.ext (by
    match a with
    | ⟨0, _⟩ => rfl
    | ⟨1, _⟩ => rfl)
  have er : ridx_main_v2 (ix2 r j) k = ix2 k j := funext fun a => Fin.ext (by
    match a with
    | ⟨0, _⟩ => rfl
    | ⟨1, _⟩ => rfl)
  rw [el, er]

/-- The third product at (r, q), over the second layer's softplus. -/
theorem third_product_apply (x0 : (⟨S131072x256, .f32⟩ : BufTy).Contents (Elt Ideal)) (x1 : (⟨S256x1024, .f32⟩ : BufTy).Contents (Elt Ideal)) (x2 : (⟨S1024x1024, .f32⟩ : BufTy).Contents (Elt Ideal)) (x3 : (⟨S1024x256, .f32⟩ : BufTy).Contents (Elt Ideal)) (r : Fin 131072) (q : Fin 256) :
    val_main_v4 (F := Ideal) x0 x1 x2 x3 (ix2 r q) = ∑ k : Fin 1024, val_main_v3 (F := Ideal) x0 x1 x2 (ix2 r k) * x3 (ix2 k q) := by
  rw [val_main_v4_apply]
  refine Finset.sum_congr rfl fun k _ => ?_
  have el : lidx_main_v4 (ix2 r q) k = ix2 r k := funext fun a => Fin.ext (by
    match a with
    | ⟨0, _⟩ => rfl
    | ⟨1, _⟩ => rfl)
  have er : ridx_main_v4 (ix2 r q) k = ix2 k q := funext fun a => Fin.ext (by
    match a with
    | ⟨0, _⟩ => rfl
    | ⟨1, _⟩ => rfl)
  rw [el, er]

/-- The reference's last stage IS the three-layer function of the arguments. -/
theorem result_eq_mlp (x0 : (⟨S131072x256, .f32⟩ : BufTy).Contents (Elt Ideal)) (x1 : (⟨S256x1024, .f32⟩ : BufTy).Contents (Elt Ideal)) (x2 : (⟨S1024x1024, .f32⟩ : BufTy).Contents (Elt Ideal)) (x3 : (⟨S1024x256, .f32⟩ : BufTy).Contents (Elt Ideal)) :
    val_main_v4 (F := Ideal) x0 x1 x2 x3 = mlp x0 x1 x2 x3 := by
  funext i
  obtain ⟨r, q, rfl⟩ : ∃ (r : Fin 131072) (q : Fin 256), i = ix2 r q := ⟨i 0, i 1, eq_ix2 i⟩
  rw [mlp_apply, third_product_apply]
  unfold mlpRow
  refine Finset.sum_congr rfl fun k3 _ => congrArg (· * x3 (ix2 k3 q)) ?_
  rw [second_softplus_apply, second_product_apply]
  refine congrArg softplus (Finset.sum_congr rfl fun k2 _ => congrArg (· * x2 (ix2 k2 k3)) ?_)
  rw [first_softplus_apply, first_product_apply]

end Cert.ReferenceIdeal.RefValue

end
-- ==== Proof.lean ====
/-
  The kernel and its reference compute the same three-layer function on the extended reals,

    out (r, q) = ∑ k₃, sp (∑ k₂, sp (∑ k₁, x (r, k₁) · w₁ (k₁, k₂)) · w₂ (k₂, k₃)) · w₃ (k₃, q),   sp = softplus

  (Proof/Mlp.lean). The kernel converts its arguments to another float format, which is the identity on extended reals, and
  works on 64 blocks of 2048 rows: each block's stored value is that function of the block's rows (Proof/Payload.lean), and the
  blocks tile the result (Proof/Whole.lean). The reference applies the same operations to the whole arrays
  (Proof/Reference.lean). Every sum is taken over the same index set in the same arrangement on both sides, so no law beyond
  reading the operations at an index is used, and the finiteness of the inputs is not needed. The ideal pass rewrote nothing
  in the kernel, so it is its own idealization.
-/
import proofs.«115337_j69286412419486_1_alg».proof.Defs
import proofs.«115337_j69286412419486_1_alg».proof.Proof.Gen.Kernel
import proofs.«115337_j69286412419486_1_alg».proof.Proof.Gen.Kernel.Skeleton
import proofs.«115337_j69286412419486_1_alg».proof.Proof.Gen.Kernel.Launch
import proofs.«115337_j69286412419486_1_alg».proof.Proof.Gen.Kernel.Points
import proofs.«115337_j69286412419486_1_alg».proof.Proof.Gen.Kernel.Frame
import proofs.«115337_j69286412419486_1_alg».proof.Proof.Gen.KernelIdeal
import proofs.«115337_j69286412419486_1_alg».proof.Proof.Gen.KernelIdeal.Skeleton
import proofs.«115337_j69286412419486_1_alg».proof.Proof.Gen.KernelIdeal.Launch
import proofs.«115337_j69286412419486_1_alg».proof.Proof.Gen.KernelIdeal.Points
import proofs.«115337_j69286412419486_1_alg».proof.Proof.Gen.KernelIdeal.Frame
import proofs.«115337_j69286412419486_1_alg».proof.Proof.Gen.KernelIdeal.Value
import proofs.«115337_j69286412419486_1_alg».proof.Proof.Gen.ReferenceIdeal
import proofs.«115337_j69286412419486_1_alg».proof.Proof.Gen.ReferenceIdeal.Run
import proofs.«115337_j69286412419486_1_alg».proof.Proof.Gen.ReferenceIdeal.Read
import proofs.«115337_j69286412419486_1_alg».proof.Proof.Gen.Pre_finite_inputs
import proofs.«115337_j69286412419486_1_alg».proof.Proof.Whole
import proofs.«115337_j69286412419486_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the three-layer function of arguments that agree. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq_mlp,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
